-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x32 : Shape := ⟨2, ![256, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x32 .f32) (main_arg3 : FVec F S32 .f32) (main_arg4 : FVec F S32x1 .f32) (main_arg5 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg2
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg4
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x32 : Shape := ⟨2, ![256, 32]⟩
abbrev S32 : Shape := ⟨1, ![32]⟩
abbrev S32x1 : Shape := ⟨2, ![32, 1]⟩
abbrev S1 : Shape := ⟨1, ![1]⟩
abbrev S100000x32 : Shape := ⟨2, ![100000, 32]⟩
abbrev S5000x256 : Shape := ⟨2, ![5000, 256]⟩
abbrev S5000x32 : Shape := ⟨2, ![5000, 32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 129
  | .vmem => 10
  | .smem => 0
  | _ => 0

abbrev hbmTy0_0 (i : Nat) : BufTy := match i % 128 with
  | 0 => ⟨S100000x256, .f32⟩
  | 1 => ⟨S2x1600000, .i32⟩
  | 2 => ⟨S256x32, .f32⟩
  | 3 => ⟨S32, .f32⟩
  | 4 => ⟨S32x1, .f32⟩
  | 5 => ⟨S1, .f32⟩
  | 6 => ⟨S100000x32, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x32, .f32⟩
  | 56 => ⟨S1700000x1, .f32⟩
  | 57 => ⟨S1700000x32, .f32⟩
  | 58 => ⟨S1700000x32, .f32⟩
  | 59 => ⟨S_, .f32⟩
  | 60 => ⟨S100000x32, .f32⟩
  | 61 => ⟨S1700000x1, .i32⟩
  | 62 => ⟨S100000x32, .f32⟩
  | 63 => ⟨S1x32, .f32⟩
  | 64 => ⟨S100000x32, .f32⟩
  | 65 => ⟨S100000x32, .f32⟩
  | 66 => ⟨S_, .f32⟩
  | 67 => ⟨S100000x32, .f32⟩
  | 68 => ⟨S100000x32, .f32⟩
  | 69 => ⟨S100000x1, .f32⟩
  | 70 => ⟨S1x1600000, .i32⟩
  | 71 => ⟨S1600000, .i32⟩
  | 72 => ⟨S1x1600000, .i32⟩
  | 73 => ⟨S1600000, .i32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x1, .f32⟩
  | 119 => ⟨S1700000x1, .f32⟩
  | 120 => ⟨S1700000x1, .f32⟩
  | 121 => ⟨S_, .f32⟩
  | 122 => ⟨S100000x1, .f32⟩
  | 123 => ⟨S1700000x1, .i32⟩
  | 124 => ⟨S100000x1, .f32⟩
  | 125 => ⟨S1x1, .f32⟩
  | 126 => ⟨S100000x1, .f32⟩
  | 127 => ⟨S100000x1, .f32⟩
  | _ => ⟨S100000x256, .f32⟩

abbrev hbmTy0_1 (i : Nat) : BufTy := match i % 128 with
  | 0 => ⟨S100000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S32x1, .f32⟩
  | .local _ .vmem, ⟨8, _⟩ => ⟨S5000x1, .f32⟩
  | .local _ .vmem, ⟨9, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  inb_S256x32_S256x32_0_0 : ∀ a, (![0, 0] : Fin 2 → Nat) a + S256x32.size a ≤ S256x32.size a
  h_S256x32 : 0 < S256x32.numel
  inb_S5000x32_S5000x32_0_0 : ∀ a, (![0, 0] : Fin 2 → Nat) a + S5000x32.size a ≤ S5000x32.size a
  h_S5000x32 : 0 < S5000x32.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S5000x32_S5000x32 : S5000x32.ShapeCasts S5000x32
  inb_S32x1_S32x1_0_0 : ∀ a, (![0, 0] : Fin 2 → Nat) a + S32x1.size a ≤ S32x1.size a
  h_S32x1 : 0 < S32x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S5000x256_S256x32_S5000x32_1_0_0_1_n_n_wf : DotDims.WF S5000x256 S256x32 S5000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x1_S5000x1_1_0_0_1_n_n_wf : DotDims.WF S5000x32 S32x1 S5000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1.size a ≤ S32x1.size a
  hwx1_1 : ∀ i : grid1.Coords, EltTy.bits .f32 = 32 ∨ (Rect.block (s := S32x1) S32x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)

variable [Facts₀]

def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x32 : Shape := ⟨2, ![256, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S100000x256, .f32⟩
  | 1 => ⟨S2x1600000, .i32⟩
  | 2 => ⟨S256x32, .f32⟩
  | 3 => ⟨S32, .f32⟩
  | 4 => ⟨S32x1, .f32⟩
  | 5 => ⟨S1, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x32, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x32, .f32⟩
  | 56 => ⟨S1700000x1, .f32⟩
  | 57 => ⟨S1700000x32, .f32⟩
  | 58 => ⟨S1700000x32, .f32⟩
  | 59 => ⟨S_, .f32⟩
  | 60 => ⟨S100000x32, .f32⟩
  | 61 => ⟨S1700000x1, .i32⟩
  | 62 => ⟨S100000x32, .f32⟩
  | 63 => ⟨S1x32, .f32⟩
  | 64 => ⟨S100000x32, .f32⟩
  | 65 => ⟨S100000x32, .f32⟩
  | 66 => ⟨S_, .f32⟩
  | 67 => ⟨S100000x32, .f32⟩
  | 68 => ⟨S100000x32, .f32⟩
  | 69 => ⟨S1x1600000, .i32⟩
  | 70 => ⟨S1600000, .i32⟩
  | 71 => ⟨S1x1600000, .i32⟩
  | 72 => ⟨S1600000, .i32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x1, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x1, .f32⟩
  | 119 => ⟨S1700000x1, .f32⟩
  | 120 => ⟨S1700000x1, .f32⟩
  | 121 => ⟨S_, .f32⟩
  | 122 => ⟨S100000x1, .f32⟩
  | 123 => ⟨S1700000x1, .i32⟩
  | 124 => ⟨S100000x1, .f32⟩
  | 125 => ⟨S1x1, .f32⟩
  | 126 => ⟨S100000x1, .f32⟩
  | 127 => ⟨S100000x1, .f32⟩
  | _ => ⟨S100000x256, .f32⟩

abbrev hbmTy0_1 (i : Nat) : BufTy := match i % 128 with
  | 0 => ⟨S100000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x32_S100000x32_1_0_0_1_n_n_wf : DotDims.WF S100000x256 S256x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x1_S100000x1_1_0_0_1_n_n_wf : DotDims.WF S100000x32 S32x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.Layers.lean ====
/-
  The two graph-convolution layers as functions of whole arrays.

  An edge list e : [2, E] (E = 1 600 000) is read as a row of sources and a row of targets; every node gets a
  self-loop (the words 0 … N-1, N = 100 000, appended to both rows), so there are E + N edges.  With
      deg(n)  = the number of edges whose target word is n (a scatter-add of ones into a zero vector),
      dinv(n) = rsqrt(deg n) where deg n > 0 and 0 elsewhere,
      norm(k) = dinv(source k) · dinv(target k)      (a negative word is first wrapped by adding N),
  one layer sends a table h : [N, D] to the table whose row n is the sum, over the edges k with target n, of
  norm(k) · h(source k, ·): a gather of rows, a product with the broadcast norms and a scatter-add into zeros.
  `hidden` is the first layer (D = 32) followed by adding the bias row and clipping below at zero; `readout` is
  the second layer (D = 1) followed by adding the bias and dropping the unit axis.

  Both programs apply exactly these two functions; they differ only in how the tables fed to them (x·W1 and
  hidden·W2) are computed.
-/
import proofs.«117022_j25821343383879_1_alg».proof.KernelIdeal
import proofs.«117022_j25821343383879_1_alg».proof.Proof.Gen.KernelIdeal

noncomputable section

namespace Cert.Gcn

open Idealize.ShloMosaic Cert.KernelIdeal Cert.KernelIdeal.Gen

variable {F : FTy → Type} [FloatOps F]

/-- The row of source words (row 0 of the edge list) followed by the self-loop words. -/
def sources (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- The row of target words (row 1 of the edge list) followed by the self-loop words. -/
def targets (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- A negative word is wrapped by adding the number of nodes. -/
def wrapped (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- The number of edges arriving at each node. -/
def degree (e : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (targets e))
    (broadcastInDim S1700000 ![] bcast_S_S1700000 (constant S_ .f32 0x3F800000#32))

/-- rsqrt of the degree where it is positive, zero elsewhere. -/
def invSqrtDegree (e : (⟨S2x1600000, .i32⟩ : BufTy).Contents (Elt F)) : (⟨S100000, .f32⟩ : BufTy).Contents (Elt F) :=
  select (cmpf .ogt (degree e) (broadcastInDim S100000 ![] bcast_S_S100000 (constant S_ .f32 0x00000000#32)))
    (Host.rsqrt (degree e))
    (broadcastInDim S100000 ![] bcast_S_S100000 (id (constant S_ .f32 0x00000000#32)))

/-- The weight of each edge: the product of the two end nodes' factors. -/
def edgeNorm (e : (⟨S2x1600000, .i32⟩ : BufTy).Contents (Elt F)) : (⟨S1700000, .f32⟩ : BufTy).Contents (Elt F) :=
  mulf
    (Host.gather gather_S100000_S1700000x1_S1700000_n_0_n_n_0_1_1 (invSqrtDegree e)
      (broadcastInDim S1700000x1 ![0] bcast_S1700000_S1700000x1_0 (wrapped (sources e))))
    (Host.gather gather_S100000_S1700000x1_S1700000_n_0_n_n_0_1_1 (invSqrtDegree e)
      (broadcastInDim S1700000x1 ![0] bcast_S1700000_S1700000x1_0 (wrapped (targets e))))

/-- The first layer: weighted rows of `h` summed at their edges' targets, plus the bias row, clipped at zero. -/
def hidden (h : (⟨S100000x32, .f32⟩ : BufTy).Contents (Elt F)) (e : (⟨S2x1600000, .i32⟩ : BufTy).Contents (Elt F))
    (b : (⟨S32, .f32⟩ : BufTy).Contents (Elt F)) : (⟨S100000x32, .f32⟩ : BufTy).Contents (Elt F) :=
  maximumf
    (addf
      (Host.scatterAdd scatter_S100000x32_S1700000x1_S1700000x32_1_0_0_1
        (broadcastInDim S100000x32 ![] bcast_S_S100000x32 (constant S_ .f32 0x00000000#32))
        (broadcastInDim S1700000x1 ![0] bcast_S1700000_S1700000x1_0 (targets e))
        (mulf
          (Host.gather gather_S100000x32_S1700000x1_S1700000x32_1_0_n_n_0_1_132 h
            (broadcastInDim S1700000x1 ![0] bcast_S1700000_S1700000x1_0 (wrapped (sources e))))
          (broadcastInDim S1700000x32 ![0, 1] bcast_S1700000x1_S1700000x32_0_1
            (broadcastInDim S1700000x1 ![0] bcast_S1700000_S1700000x1_0 (edgeNorm e)))))
      (broadcastInDim S100000x32 ![0, 1] bcast_S1x32_S100000x32_0_1 (broadcastInDim S1x32 ![1] bcast_S32_S1x32_1 b)))
    (broadcastInDim S100000x32 ![] bcast_S_S100000x32 (constant S_ .f32 0x00000000#32))

/-- The second layer: weighted entries of `o` summed at their edges' targets, plus the bias, as a vector. -/
def readout (o : (⟨S100000x1, .f32⟩ : BufTy).Contents (Elt F)) (e : (⟨S2x1600000, .i32⟩ : BufTy).Contents (Elt F))
    (b : (⟨S1, .f32⟩ : BufTy).Contents (Elt F)) : (⟨S100000, .f32⟩ : BufTy).Contents (Elt F) :=
  shapeCast _
    (addf
      (Host.scatterAdd scatter_S100000x1_S1700000x1_S1700000x1_1_0_0_1
        (broadcastInDim S100000x1 ![] bcast_S_S100000x1 (constant S_ .f32 0x00000000#32))
        (broadcastInDim S1700000x1 ![0] bcast_S1700000_S1700000x1_0 (targets e))
        (mulf
          (Host.gather gather_S100000x1_S1700000x1_S1700000x1_1_0_n_n_0_1_11 o
            (broadcastInDim S1700000x1 ![0] bcast_S1700000_S1700000x1_0 (wrapped (sources e))))
          (broadcastInDim S1700000x1 ![0] bcast_S1700000_S1700000x1_0 (edgeNorm e))))
      (broadcastInDim S100000x1 ![0, 1] bcast_S1x1_S100000x1_0_1 (broadcastInDim S1x1 ![1] bcast_S1_S1x1_1 b)))
    shapeCasts_S100000x1_S100000

end Cert.Gcn

end
-- ==== Proof.LibHostDot.lean ====
/-
  The host's matrix product read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values the host's `dot_general` has, at
  entry (p, q), the value
      Σ_{k < K} l(p, k) · r(k, q).
  The sum over the contraction shape's one-axis index type is re-indexed over `Fin K`; the operand indices the
  dimension numbers read at result entry (p, q) and contracted position k are (p, k) and (k, q).

  The hypotheses `hl0` and `hr1` say that the result's axis 0 is the left operand's axis 0 and the result's axis 1
  the right operand's axis 1; for a printed record `D` with no batch axes each is
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibHostDot

open Idealize.ShloMosaic Idealize.ShloMosaic.ValueIdx

/-- `Host.dotGeneral D prec l r (p, q) = Σ_k l(p, k) · r(k, q)` at the ideal values, for two-dimensional operands
    with one contracted axis. -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral D prec l r (ix2 p q) = ∑ k : Fin K, l (ix2 p k) * r (ix2 k q) := by
  simp only [Host.dotGeneral]
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibHostDot

end
-- ==== Proof.LibMatProd.lean ====
/-
  The matrix product of two arrays of extended reals, entry by entry, and the host's `dot_general` as that product.

  For l : [R, K] and r : [K, C] the product is the array whose entry (p, q) is Σ_{k < K} l(p, k) · r(k, q).  Sums and
  products of extended reals are taken as they come (no finiteness is needed: nothing is rearranged beyond the order
  of a finite sum, and addition of extended reals is commutative and associative).  For any extents R, K, C and operand
  formats; beside the library it imports only the host product read at one entry (LibHostDot).
-/
import proofs.«117022_j25821343383879_1_alg».proof.Proof.LibHostDot
import Idealize.ShloMosaic.Lib.ValueIdx

noncomputable section

namespace Cert.LibMatProd

open Idealize.ShloMosaic Idealize.ShloMosaic.ValueIdx

/-- The product of an [R, K] and a [K, C] array: entry (p, q) is Σ_k l(p, k) · r(k, q). -/
def matProd {R K C : Nat} {φ₁ φ₂ : FTy} (l : FVec Ideal ⟨2, ![R, K]⟩ φ₁) (r : FVec Ideal ⟨2, ![K, C]⟩ φ₂) :
    FVec Ideal ⟨2, ![R, C]⟩ .f32 :=
  fun i => ∑ k : Fin K, l (ix2 (n0 := R) (n1 := K) (i 0) k) * r (ix2 (n0 := K) (n1 := C) k (i 1))

/-- Its entry at (p, q). -/
theorem matProd_ix2 {R K C : Nat} {φ₁ φ₂ : FTy} (l : FVec Ideal ⟨2, ![R, K]⟩ φ₁) (r : FVec Ideal ⟨2, ![K, C]⟩ φ₂)
    (p : Fin R) (q : Fin C) : matProd l r (ix2 p q) = ∑ k : Fin K, l (ix2 p k) * r (ix2 k q) := rfl

/-- The host's `dot_general` that contracts the left operand's axis 1 with the right operand's axis 0 is the matrix
    product. -/
theorem dotGeneral_eq {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) :
    Host.dotGeneral D prec l r = matProd l r := by
  funext i
  obtain ⟨p, q, rfl⟩ : ∃ (p : Fin R) (q : Fin C), i = ix2 p q := ⟨i 0, i 1, eq_ix2 i⟩
  exact Cert.LibHostDot.dotGeneral_ix2 D hlc hrc hr hs hl0 hr1 prec l r p q

end Cert.LibMatProd

end
-- ==== Proof.RefSide.lean ====
/-
  The reference program's result as the two layers around two matrix products.

  The reference computes x·W1 and hidden·W2 by the host's matrix product; every other operation of it is one of
  the operations of `Cert.Gcn.hidden` and `Cert.Gcn.readout`, in the same arrangement.  At the ideal values the
  host's product of an [R, K] and a [K, C] array is the array of the sums Σ_k l(p, k) · r(k, q).
-/
import proofs.«117022_j25821343383879_1_alg».proof.Proof.RefRun
import proofs.«117022_j25821343383879_1_alg».proof.Proof.Layers
import proofs.«117022_j25821343383879_1_alg».proof.Proof.LibMatProd

noncomputable section

namespace Cert.Gcn.Ref

open Idealize.ShloMosaic Idealize.ShloMosaic.TcCoe Idealize.SL.Sem
open Cert.ReferenceIdeal Cert.ReferenceIdeal.Gen
open Cert.LibMatProd

/-- The host's x·W1 is the matrix product. -/
theorem dot1_eq (l : FVec Ideal ⟨2, ![100000, 256]⟩ .f32) (r : FVec Ideal ⟨2, ![256, 32]⟩ .f32) :
    Host.dotGeneral dot_S100000x256_S256x32_S100000x32_1_0_0_1_n_n none l r = matProd l r :=
  dotGeneral_eq (R := 100000) (K := 256) (C := 32) dot_S100000x256_S256x32_S100000x32_1_0_0_1_n_n rfl rfl rfl rfl
    (fun i c => by
      unfold DotDims.lhsIdx
      rw [dif_neg (show ¬(0 : Fin _) ∈ dot_S100000x256_S256x32_S100000x32_1_0_0_1_n_n.lhsBatch by decide),
        dif_pos (show (0 : Fin _) ∈ dot_S100000x256_S256x32_S100000x32_1_0_0_1_n_n.lhsNonContracting by decide)]
      rfl)
    (fun i c => by
      unfold DotDims.rhsIdx
      rw [dif_neg (show ¬(1 : Fin _) ∈ dot_S100000x256_S256x32_S100000x32_1_0_0_1_n_n.rhsBatch by decide),
        dif_pos (show (1 : Fin _) ∈ dot_S100000x256_S256x32_S100000x32_1_0_0_1_n_n.rhsNonContracting by decide)]
      rfl)
    none l r

/-- The host's hidden·W2 is the matrix product. -/
theorem dot2_eq (l : FVec Ideal ⟨2, ![100000, 32]⟩ .f32) (r : FVec Ideal ⟨2, ![32, 1]⟩ .f32) :
    Host.dotGeneral dot_S100000x32_S32x1_S100000x1_1_0_0_1_n_n none l r = matProd l r :=
  dotGeneral_eq (R := 100000) (K := 32) (C := 1) dot_S100000x32_S32x1_S100000x1_1_0_0_1_n_n rfl rfl rfl rfl
    (fun i c => by
      unfold DotDims.lhsIdx
      rw [dif_neg (show ¬(0 : Fin _) ∈ dot_S100000x32_S32x1_S100000x1_1_0_0_1_n_n.lhsBatch by decide),
        dif_pos (show (0 : Fin _) ∈ dot_S100000x32_S32x1_S100000x1_1_0_0_1_n_n.lhsNonContracting by decide)]
      rfl)
    (fun i c => by
      unfold DotDims.rhsIdx
      rw [dif_neg (show ¬(1 : Fin _) ∈ dot_S100000x32_S32x1_S100000x1_1_0_0_1_n_n.rhsBatch by decide),
        dif_pos (show (1 : Fin _) ∈ dot_S100000x32_S32x1_S100000x1_1_0_0_1_n_n.rhsNonContracting by decide)]
      rfl)
    none l r

/-- The reference's composed term is the two layers around the host's two products. -/
theorem res_layers (m : (ℓ : Loc nD τ sig) → Buf (Elt Ideal) ℓ) (c : Dev nD) :
    Cert.ReferenceIdeal.ValueP.res_main_v94 (F := Ideal) m c
      = Cert.Gcn.readout (F := Ideal)
          (Host.dotGeneral (F := Ideal) (φ₁ := .f32) (φ₂ := .f32) dot_S100000x32_S32x1_S100000x1_1_0_0_1_n_n none
            (Cert.Gcn.hidden (F := Ideal)
              (Host.dotGeneral (F := Ideal) (φ₁ := .f32) (φ₂ := .f32) dot_S100000x256_S256x32_S100000x32_1_0_0_1_n_n none
                (m ((c.tc : Thread nD τ).loc main_arg0)) (m ((c.tc : Thread nD τ).loc main_arg2)))
              (m ((c.tc : Thread nD τ).loc main_arg1)) (m ((c.tc : Thread nD τ).loc main_arg3)))
            (m ((c.tc : Thread nD τ).loc main_arg4)))
          (m ((c.tc : Thread nD τ).loc main_arg1)) (m ((c.tc : Thread nD τ).loc main_arg5)) := by
  unfold Cert.ReferenceIdeal.ValueP.res_main_v94; rfl

/-- The reference's result: `readout (hidden (x·W1) e b1 · W2) e b2` with the products as sums. -/
theorem res_eq (m : (ℓ : Loc nD τ sig) → Buf (Elt Ideal) ℓ) (c : Dev nD) :
    Cert.ReferenceIdeal.ValueP.res_main_v94 (F := Ideal) m c
      = Cert.Gcn.readout (F := Ideal)
          (matProd (R := 100000) (K := 32) (C := 1) (φ₁ := .f32) (φ₂ := .f32)
            (Cert.Gcn.hidden (F := Ideal)
              (matProd (R := 100000) (K := 256) (C := 32) (φ₁ := .f32) (φ₂ := .f32)
                (m ((c.tc : Thread nD τ).loc main_arg0)) (m ((c.tc : Thread nD τ).loc main_arg2)))
              (m ((c.tc : Thread nD τ).loc main_arg1)) (m ((c.tc : Thread nD τ).loc main_arg3)))
            (m ((c.tc : Thread nD τ).loc main_arg4)))
          (m ((c.tc : Thread nD τ).loc main_arg1)) (m ((c.tc : Thread nD τ).loc main_arg5)) := by
  rw [res_layers, dot1_eq, dot2_eq]

end Cert.Gcn.Ref

end
-- ==== Proof.KernelRun.lean ====
/-
  The idealized kernel program's run with every buffer named.

  The program is nine segments: the first product region, four stretches of host operations, the second product
  region, three more stretches.  The buffer contents at the nine boundaries are a fold from the launch memory
  (`W0` … `W9` of the generated frame module): a stretch applies its operations, a region replaces its arrays by
  what its write-backs leave.  Every weakly fair execution terminates, nothing faulting, and every unscoped
  buffer of every core then holds the last boundary's contents `W9`.
-/
import proofs.«117022_j25821343383879_1_alg».proof.Proof.Gen.KernelIdeal.Frame

set_option maxRecDepth 16384

noncomputable section

namespace Cert.Gcn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting, with every unscoped buffer
    of every core at the contents after the last segment. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The result buffer and the six argument buffers are unscoped. -/
theorem mem_unscoped (b : Ref sig .tc) (h : ¬ (Proc.devRef .tc b : DevRef τ sig).isScoped) :
    Proc.devRef .tc b ∈ Pipeline.ucRefs τ sig := mem_uc b h

end Cert.Gcn.KernelRun

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.Mm0.lean ====
/-
  The first product region: after it the result array is x · W1.

  The grid has 20 points; point t stages rows 5000·t … 5000·t + 4999 of the left operand (a [100000, 256] array),
  the whole right operand (a [256, 32] array), and writes back rows 5000·t … 5000·t + 4999 of the result.  The body
  multiplies the staged block by the staged right operand into a zero accumulator, so at the ideal values entry
  (p, q) of what point t writes back is Σ_{k < 256} l(5000·t + p, k) · r(k, q): block t of the matrix product l·r.
  The 20 blocks cover every row (row n lies in block n / 5000), so after the region the result array is l·r.
  All of this holds whatever the buffers held when the region was entered (the parameter `V`).
-/
import proofs.«117022_j25821343383879_1_alg».proof.Proof.Gen.KernelIdeal.Frame
import proofs.«117022_j25821343383879_1_alg».proof.Proof.LibMatmulZero
import proofs.«117022_j25821343383879_1_alg».proof.Proof.LibMatProd
import Idealize.ShloMosaic.Lib.Pipeline.Value
import Idealize.ShloMosaic.Lib.ValueIdx

noncomputable section

namespace Cert.Gcn.Mm0

open Idealize.ShloMosaic Idealize.ShloMosaic.TcCoe Idealize.SL.Sem Idealize.ShloMosaic.ValueIdx
open Idealize.ShloMosaic.Pipeline (Dat)
open Cert.KernelIdeal Cert.KernelIdeal.Gen
open Cert.LibMatProd

variable (V : (c : Dev nD) → (b : Ref sig .tc) → Buf (Elt Ideal) ((c : Thread nD τ).loc b))

theorem zeros : (![0, 0] : Fin 2 → Nat) = fun _ => 0 := funext fun a => by fin_cases a <;> rfl

/-- The body's product at entry (p, q): the sum over k of the staged left block at (p, k) times the staged right
    operand at (k, q). -/
theorem pay_apply (x0 : FVec Ideal S5000x256 .f32) (x1 : FVec Ideal S256x32 .f32) (p : Fin 5000) (q : Fin 32) :
    k0_pay1 (F := Ideal) x0 x1 (ix2 p q) = ∑ k : Fin 256, x0 (ix2 p k) * x1 (ix2 k q) := by
  unfold k0_pay1
  exact Cert.LibMatmulZero.matmul_zero_ix2 (R := 5000) (K := 256) (C := 32) dot_S5000x256_S256x32_S5000x32_1_0_0_1_n_n rfl rfl rfl rfl
    (fun i c => by
      unfold DotDims.lhsIdx
      rw [dif_neg (show ¬(0 : Fin _) ∈ dot_S5000x256_S256x32_S5000x32_1_0_0_1_n_n.lhsBatch by decide),
        dif_pos (show (0 : Fin _) ∈ dot_S5000x256_S256x32_S5000x32_1_0_0_1_n_n.lhsNonContracting by decide)]
      rfl)
    (fun i c => by
      unfold DotDims.rhsIdx
      rw [dif_neg (show ¬(1 : Fin _) ∈ dot_S5000x256_S256x32_S5000x32_1_0_0_1_n_n.rhsBatch by decide),
        dif_pos (show (1 : Fin _) ∈ dot_S5000x256_S256x32_S5000x32_1_0_0_1_n_n.rhsNonContracting by decide)]
      rfl)
    none x0 x1 p q

/-- The printed index maps, decided over the 20 points: the left operand's and the result's blocks are block row t,
    the right operand's block is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The staged left block at point t is rows 5000·t … of the left operand. -/
theorem left_apply (c : Dev nD) (t : Fin cfg0.N) (x : S5000x256.Idx) (i : S100000x256.Idx)
    (h0 : (i 0).val = 5000 * t.val + (x 0).val) (h1 : (i 1).val = (x 1).val) :
    (iblk0 V c 0 t : Vec Ideal S5000x256 .f32) x = (V c main_arg0 : S100000x256.Idx → Elt Ideal .f32) i := by
  obtain ⟨e0, e1, -⟩ := idx_facts t
  unfold iblk0
  rw [View.read_apply]
  show V c main_arg0 _ = V c main_arg0 _
  refine congrArg _ ?_
  funext a
  apply Fin.ext
  match a with
  | ⟨0, _⟩ => show win0_0.index t (0 : Fin 2) * 5000 + 1 * (x 0).val = (i 0).val; rw [e0, h0]; omega
  | ⟨1, _⟩ => show win0_0.index t (1 : Fin 2) * 256 + 1 * (x 1).val = (i 1).val; rw [e1, h1]; omega

/-- The staged right operand at any point is the right operand. -/
theorem right_apply (c : Dev nD) (t : Fin cfg0.N) (x i : S256x32.Idx)
    (h0 : (i 0).val = (x 0).val) (h1 : (i 1).val = (x 1).val) :
    (iblk0 V c 1 t : Vec Ideal S256x32 .f32) x = (V c main_arg2 : S256x32.Idx → Elt Ideal .f32) i := by
  obtain ⟨-, -, e2, e3, -⟩ := idx_facts t
  unfold iblk0
  rw [View.read_apply]
  show V c main_arg2 _ = V c main_arg2 _
  refine congrArg _ ?_
  funext a
  apply Fin.ext
  match a with
  | ⟨0, _⟩ => show win0_1.index t (0 : Fin 2) * 256 + 1 * (x 0).val = (i 0).val; rw [e2, h0]; omega
  | ⟨1, _⟩ => show win0_1.index t (1 : Fin 2) * 32 + 1 * (x 1).val = (i 1).val; rw [e3, h1]; omega

/-- One entry of a block's product is the entry of the whole product it sits at, when the block's row and the
    right operand's column are read where the whole arrays have them. -/
theorem block_entry (A : FVec Ideal ⟨2, ![100000, 256]⟩ .f32) (B : FVec Ideal ⟨2, ![256, 32]⟩ .f32)
    (x0 : FVec Ideal S5000x256 .f32) (x1 : FVec Ideal S256x32 .f32) (j : S5000x32.Idx) (i : S100000x32.Idx)
    (h0 : ∀ k : Fin 256, x0 (ix2 (j 0) k) = A (ix2 (i 0) k))
    (h1 : ∀ k : Fin 256, x1 (ix2 k (j 1)) = B (ix2 k (i 1))) :
    k0_pay1 (F := Ideal) x0 x1 j = matProd A B i := by
  refine (congrArg (k0_pay1 (F := Ideal) x0 x1) (eq_ix2 j)).trans ?_
  refine (pay_apply x0 x1 (j 0) (j 1)).trans ?_
  show _ = ∑ k : Fin 256, A (ix2 (i 0) k) * B (ix2 k (i 1))
  exact Finset.sum_congr rfl fun k _ => by rw [h0 k, h1 k]

/-- What point t writes back is block t of the matrix product of the two operands as the region finds them. -/
theorem flushed_eq (c : Dev nD) (t : Fin cfg0.N) :
    (dat0 V c).flushed 2 t = ((cfg0.win 2).blk t).view.read (Elt Ideal)
      (matProd (R := 100000) (K := 256) (C := 32) (φ₁ := .f32) (φ₂ := .f32) (V c main_arg0) (V c main_arg2)) := by
  show (cfg0.win 2).cut (grid0.coords t) ((dat0 V c).after 2 t) = _
  rw [after0_2]
  unfold out0_2
  rw [View.canon_unit_zero zeros]
  simp only [View.ld_unit_zero (S := S5000x256) zeros, View.ld_unit_zero (S := S256x32) zeros]
  obtain ⟨-, -, -, -, e4, e5⟩ := idx_facts t
  funext j
  have hrow : ((((cfg0.win 2).blk t).view.emb j) (0 : Fin 2)).val = 5000 * t.val + (j 0).val := by
    show win0_2.index t (0 : Fin 2) * 5000 + 1 * (j 0).val = _
    rw [e4]; omega
  have hcol : ((((cfg0.win 2).blk t).view.emb j) (1 : Fin 2)).val = (j 1).val := by
    show win0_2.index t (1 : Fin 2) * 32 + 1 * (j 1).val = _
    rw [e5]; omega
  exact block_entry (V c main_arg0) (V c main_arg2) (iblk0 V c 0 t) (iblk0 V c 1 t) j (((cfg0.win 2).blk t).view.emb j)
    (fun k => left_apply V c t (ix2 (j 0) k) (ix2 ((((cfg0.win 2).blk t).view.emb j) 0) k) hrow rfl)
    (fun k => right_apply V c t (ix2 k (j 1)) (ix2 k ((((cfg0.win 2).blk t).view.emb j) 1)) rfl hcol)

/-- An index of the result array is in point t's block iff each coordinate is in the block's range on its axis. -/
theorem mem_blk (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v0).slice (win0_2.rect t)).set ↔ _
  rw [View.set_slice_whole, Rect.mem_set_unit]
  exact Iff.rfl

/-- Every row of the result lies in some point's block: row n in block n / 5000. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ : ∃ t : Fin cfg0.N, t.val = (i 0).val / 5000 := ⟨⟨(i 0).val / 5000, by show (i 0).val / 5000 < 20; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 32 ≤ (i 1).val ∧ (i 1).val < win0_2.index t (1 : Fin 2) * 32 + 32; rw [e5]; omega

/-- After the region the result array is the matrix product of the two operands as the region found them. -/
theorem final (c : Dev nD) :
    (dat0 V c).arrAt 2 cfg0.N
      = matProd (R := 100000) (K := 256) (C := 32) (φ₁ := .f32) (φ₂ := .f32) (V c main_arg0) (V c main_arg2) :=
  (dat0 V c).arrAt_eq_of_cover 2 _ (fun t _ => flushed_eq V c t) cover

end Cert.Gcn.Mm0

end
-- ==== Proof.Mm1.lean ====
/-
  The second product region: after it the result array is h · W2, h the array the region finds in its left operand's buffer.

  The grid has 20 points; point t stages rows 5000·t … 5000·t + 4999 of the left operand (a [100000, 32] array),
  the whole right operand (a [32, 1] array), and writes back rows 5000·t … 5000·t + 4999 of the result.  The body
  multiplies the staged block by the staged right operand into a zero accumulator, so at the ideal values entry
  (p, q) of what point t writes back is Σ_{k < 32} l(5000·t + p, k) · r(k, q): block t of the matrix product l·r.
  The 20 blocks cover every row (row n lies in block n / 5000), so after the region the result array is l·r.
  All of this holds whatever the buffers held when the region was entered (the parameter `V`).
-/
import proofs.«117022_j25821343383879_1_alg».proof.Proof.Gen.KernelIdeal.Frame
import proofs.«117022_j25821343383879_1_alg».proof.Proof.LibMatmulZero
import proofs.«117022_j25821343383879_1_alg».proof.Proof.LibMatProd
import Idealize.ShloMosaic.Lib.Pipeline.Value
import Idealize.ShloMosaic.Lib.ValueIdx

noncomputable section

namespace Cert.Gcn.Mm1

open Idealize.ShloMosaic Idealize.ShloMosaic.TcCoe Idealize.SL.Sem Idealize.ShloMosaic.ValueIdx
open Idealize.ShloMosaic.Pipeline (Dat)
open Cert.KernelIdeal Cert.KernelIdeal.Gen
open Cert.LibMatProd

variable (V : (c : Dev nD) → (b : Ref sig .tc) → Buf (Elt Ideal) ((c : Thread nD τ).loc b))

theorem zeros : (![0, 0] : Fin 2 → Nat) = fun _ => 0 := funext fun a => by fin_cases a <;> rfl

/-- The body's product at entry (p, q): the sum over k of the staged left block at (p, k) times the staged right
    operand at (k, q). -/
theorem pay_apply (x0 : FVec Ideal S5000x32 .f32) (x1 : FVec Ideal S32x1 .f32) (p : Fin 5000) (q : Fin 1) :
    k1_pay1 (F := Ideal) x0 x1 (ix2 p q) = ∑ k : Fin 32, x0 (ix2 p k) * x1 (ix2 k q) := by
  unfold k1_pay1
  rw [shapeCast_self x0 shapeCasts_S5000x32_S5000x32]
  exact Cert.LibMatmulZero.matmul_zero_ix2 (R := 5000) (K := 32) (C := 1) dot_S5000x32_S32x1_S5000x1_1_0_0_1_n_n rfl rfl rfl rfl
    (fun i c => by
      unfold DotDims.lhsIdx
      rw [dif_neg (show ¬(0 : Fin _) ∈ dot_S5000x32_S32x1_S5000x1_1_0_0_1_n_n.lhsBatch by decide),
        dif_pos (show (0 : Fin _) ∈ dot_S5000x32_S32x1_S5000x1_1_0_0_1_n_n.lhsNonContracting by decide)]
      rfl)
    (fun i c => by
      unfold DotDims.rhsIdx
      rw [dif_neg (show ¬(1 : Fin _) ∈ dot_S5000x32_S32x1_S5000x1_1_0_0_1_n_n.rhsBatch by decide),
        dif_pos (show (1 : Fin _) ∈ dot_S5000x32_S32x1_S5000x1_1_0_0_1_n_n.rhsNonContracting by decide)]
      rfl)
    none x0 x1 p q

/-- The printed index maps, decided over the 20 points: the left operand's and the result's blocks are block row t,
    the right operand's block is the whole array. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The staged left block at point t is rows 5000·t … of the left operand. -/
theorem left_apply (c : Dev nD) (t : Fin cfg1.N) (x : S5000x32.Idx) (i : S100000x32.Idx)
    (h0 : (i 0).val = 5000 * t.val + (x 0).val) (h1 : (i 1).val = (x 1).val) :
    (iblk1 V c 0 t : Vec Ideal S5000x32 .f32) x = (V c main_v47 : S100000x32.Idx → Elt Ideal .f32) i := by
  obtain ⟨e0, e1, -⟩ := idx_facts t
  unfold iblk1
  rw [View.read_apply]
  show V c main_v47 _ = V c main_v47 _
  refine congrArg _ ?_
  funext a
  apply Fin.ext
  match a with
  | ⟨0, _⟩ => show win1_0.index t (0 : Fin 2) * 5000 + 1 * (x 0).val = (i 0).val; rw [e0, h0]; omega
  | ⟨1, _⟩ => show win1_0.index t (1 : Fin 2) * 32 + 1 * (x 1).val = (i 1).val; rw [e1, h1]; omega

/-- The staged right operand at any point is the right operand. -/
theorem right_apply (c : Dev nD) (t : Fin cfg1.N) (x i : S32x1.Idx)
    (h0 : (i 0).val = (x 0).val) (h1 : (i 1).val = (x 1).val) :
    (iblk1 V c 1 t : Vec Ideal S32x1 .f32) x = (V c main_arg4 : S32x1.Idx → Elt Ideal .f32) i := by
  obtain ⟨-, -, e2, e3, -⟩ := idx_facts t
  unfold iblk1
  rw [View.read_apply]
  show V c main_arg4 _ = V c main_arg4 _
  refine congrArg _ ?_
  funext a
  apply Fin.ext
  match a with
  | ⟨0, _⟩ => show win1_1.index t (0 : Fin 2) * 32 + 1 * (x 0).val = (i 0).val; rw [e2, h0]; omega
  | ⟨1, _⟩ => show win1_1.index t (1 : Fin 2) * 1 + 1 * (x 1).val = (i 1).val; rw [e3, h1]; omega

/-- One entry of a block's product is the entry of the whole product it sits at, when the block's row and the
    right operand's column are read where the whole arrays have them. -/
theorem block_entry (A : FVec Ideal ⟨2, ![100000, 32]⟩ .f32) (B : FVec Ideal ⟨2, ![32, 1]⟩ .f32)
    (x0 : FVec Ideal S5000x32 .f32) (x1 : FVec Ideal S32x1 .f32) (j : S5000x1.Idx) (i : S100000x1.Idx)
    (h0 : ∀ k : Fin 32, x0 (ix2 (j 0) k) = A (ix2 (i 0) k))
    (h1 : ∀ k : Fin 32, x1 (ix2 k (j 1)) = B (ix2 k (i 1))) :
    k1_pay1 (F := Ideal) x0 x1 j = matProd A B i := by
  refine (congrArg (k1_pay1 (F := Ideal) x0 x1) (eq_ix2 j)).trans ?_
  refine (pay_apply x0 x1 (j 0) (j 1)).trans ?_
  show _ = ∑ k : Fin 32, A (ix2 (i 0) k) * B (ix2 k (i 1))
  exact Finset.sum_congr rfl fun k _ => by rw [h0 k, h1 k]

/-- What point t writes back is block t of the matrix product of the two operands as the region finds them. -/
theorem flushed_eq (c : Dev nD) (t : Fin cfg1.N) :
    (dat1 V c).flushed 2 t = ((cfg1.win 2).blk t).view.read (Elt Ideal)
      (matProd (R := 100000) (K := 32) (C := 1) (φ₁ := .f32) (φ₂ := .f32) (V c main_v47) (V c main_arg4)) := by
  show (cfg1.win 2).cut (grid1.coords t) ((dat1 V c).after 2 t) = _
  rw [after1_2]
  unfold out1_2
  rw [View.canon_unit_zero zeros]
  simp only [View.ld_unit_zero (S := S5000x32) zeros, View.ld_unit_zero (S := S32x1) zeros]
  obtain ⟨-, -, -, -, e4, e5⟩ := idx_facts t
  funext j
  have hrow : ((((cfg1.win 2).blk t).view.emb j) (0 : Fin 2)).val = 5000 * t.val + (j 0).val := by
    show win1_2.index t (0 : Fin 2) * 5000 + 1 * (j 0).val = _
    rw [e4]; omega
  have hcol : ((((cfg1.win 2).blk t).view.emb j) (1 : Fin 2)).val = (j 1).val := by
    show win1_2.index t (1 : Fin 2) * 1 + 1 * (j 1).val = _
    rw [e5]; omega
  exact block_entry (V c main_v47) (V c main_arg4) (iblk1 V c 0 t) (iblk1 V c 1 t) j (((cfg1.win 2).blk t).view.emb j)
    (fun k => left_apply V c t (ix2 (j 0) k) (ix2 ((((cfg1.win 2).blk t).view.emb j) 0) k) hrow rfl)
    (fun k => right_apply V c t (ix2 k (j 1)) (ix2 k ((((cfg1.win 2).blk t).view.emb j) 1)) rfl hcol)

/-- An index of the result array is in point t's block iff each coordinate is in the block's range on its axis. -/
theorem mem_blk (t : Fin cfg1.N) (i : S100000x1.Idx) :
    i ∈ ((cfg1.win 2).blk t).view.set ↔ ∀ a : Fin 2, win1_2.index t a * S5000x1.size a ≤ (i a).val ∧ (i a).val < win1_2.index t a * S5000x1.size a + S5000x1.size a := by
  show i ∈ ((View.whole main_v48).slice (win1_2.rect t)).set ↔ _
  rw [View.set_slice_whole, Rect.mem_set_unit]
  exact Iff.rfl

/-- Every row of the result lies in some point's block: row n in block n / 5000. -/
theorem cover (i : S100000x1.Idx) : ∃ t : Fin cfg1.N, (cfg1.win 2).flush t = true ∧ i ∈ ((cfg1.win 2).blk t).view.set := by
  have hi0 : (i 0).val < 100000 := (i 0).isLt
  have hi1 : (i 1).val < 1 := (i 1).isLt
  obtain ⟨t, ht⟩ : ∃ t : Fin cfg1.N, t.val = (i 0).val / 5000 := ⟨⟨(i 0).val / 5000, by show (i 0).val / 5000 < 20; omega⟩, rfl⟩
  obtain ⟨-, -, -, -, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 1 ≤ (i 1).val ∧ (i 1).val < win1_2.index t (1 : Fin 2) * 1 + 1; rw [e5]; omega

/-- After the region the result array is the matrix product of the two operands as the region found them. -/
theorem final (c : Dev nD) :
    (dat1 V c).arrAt 2 cfg1.N
      = matProd (R := 100000) (K := 32) (C := 1) (φ₁ := .f32) (φ₂ := .f32) (V c main_v47) (V c main_arg4) :=
  (dat1 V c).arrAt_eq_of_cover 2 _ (fun t _ => flushed_eq V c t) cover

end Cert.Gcn.Mm1

end
-- ==== Proof.KernelValue.lean ====
/-
  The idealized kernel program's result as the two layers around two matrix products.

  After the last segment the result buffer holds the last stretch of host operations applied to what the second
  product region left, that region's left operand is the middle stretch applied to what the first product region
  left, and each region leaves the matrix product of its operands (Mm0, Mm1).  The middle stretch is
  `Cert.Gcn.hidden` of the first product, the edge list and the first bias; the last stretch is
  `Cert.Gcn.readout` of the second product, the edge list and the second bias.  No stretch and no region writes
  an argument array, so each is read back as launched.
-/
import proofs.«117022_j25821343383879_1_alg».proof.Proof.Gen.KernelIdeal.Frame
import proofs.«117022_j25821343383879_1_alg».proof.Proof.Layers
import proofs.«117022_j25821343383879_1_alg».proof.Proof.Mm0
import proofs.«117022_j25821343383879_1_alg».proof.Proof.Mm1
import Idealize.ShloMosaic.Lib.StableHlo.Run

set_option maxRecDepth 16384

noncomputable section

namespace Cert.Gcn.KernelValue

open Idealize.ShloMosaic Idealize.ShloMosaic.TcCoe Idealize.SL.Sem Idealize.ShloMosaic.StableHlo
open Cert.KernelIdeal Cert.KernelIdeal.Gen
open Cert.LibMatProd

variable (m : (ℓ : Loc nD τ sig) → Buf (Elt Ideal) ℓ) (ρ : Dev nD → PrngReg)

/-! ## The stretches of host operations

The selection `where(deg > 0, rsqrt deg, 0)` and the clip at zero are each three operations on buffers of their own;
written out over the plain references they are the lists below. -/

/-- The three operations of `where(c, v, k)`: the scalar `k`, its broadcast, the selection. -/
abbrev where1 : List (HloOp τ sig (Elt Ideal)) :=
  [ StableHlo.unary main_cst_2 main_call0_v0 (id : (⟨S_, .f32⟩ : BufTy).Contents (Elt Ideal) → (⟨S_, .f32⟩ : BufTy).Contents (Elt Ideal)),
    StableHlo.unary main_call0_v0 main_call0_v1 (broadcastInDim S100000 ![] bcast_S_S100000 : (⟨S_, .f32⟩ : BufTy).Contents (Elt Ideal) → (⟨S100000, .f32⟩ : BufTy).Contents (Elt Ideal)),
    StableHlo.ternary main_v13 main_v14 main_call0_v1 main_v15 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ]
theorem where1_eq : (hostOps1_1 : List (HloOp τ sig (Elt Ideal))) = where1 := rfl

/-- The same three operations at the second layer's buffers. -/
abbrev where2 : List (HloOp τ sig (Elt Ideal)) :=
  [ StableHlo.unary main_cst_12 main_call2_v0 (id : (⟨S_, .f32⟩ : BufTy).Contents (Elt Ideal) → (⟨S_, .f32⟩ : BufTy).Contents (Elt Ideal)),
    StableHlo.unary main_call2_v0 main_call2_v1 (broadcastInDim S100000 ![] bcast_S_S100000 : (⟨S_, .f32⟩ : BufTy).Contents (Elt Ideal) → (⟨S100000, .f32⟩ : BufTy).Contents (Elt Ideal)),
    StableHlo.ternary main_v61 main_v62 main_call2_v1 main_v63 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ]
theorem where2_eq : (hostOps2_1 : List (HloOp τ sig (Elt Ideal))) = where2 := rfl

/-- The three operations of the clip at zero: the scalar zero, its broadcast, the maximum. -/
abbrev clip1 : List (HloOp τ sig (Elt Ideal)) :=
  [ StableHlo.nullary main_call1_cst (constant (F := Ideal) S_ .f32 0x00000000#32),
    StableHlo.unary main_call1_cst main_call1_v0 (broadcastInDim S100000x32 ![] bcast_S_S100000x32 : (⟨S_, .f32⟩ : BufTy).Contents (Elt Ideal) → (⟨S100000x32, .f32⟩ : BufTy).Contents (Elt Ideal)),
    StableHlo.binary main_v46 main_call1_v0 main_v47 (maximumf (F := Ideal) (φ := .f32) : (⟨S100000x32, .f32⟩ : BufTy).Contents (Elt Ideal) → (⟨S100000x32, .f32⟩ : BufTy).Contents (Elt Ideal) → (⟨S100000x32, .f32⟩ : BufTy).Contents (Elt Ideal)) ]
theorem clip1_eq : (hostOps1_3 : List (HloOp τ sig (Elt Ideal))) = clip1 := rfl

set_option maxHeartbeats 4000000 in
/-- The last three stretches compute `readout` of the second region's result, the edge list and the second bias. -/
theorem last_stretch (c : Dev nD) :
    W9 m ρ c (Proc.devRef .tc main_v94)
      = Cert.Gcn.readout (F := Ideal) (W6 m ρ c (Proc.devRef .tc main_v48)) (W6 m ρ c (Proc.devRef .tc main_arg1))
          (W6 m ρ c (Proc.devRef .tc main_arg5)) := by
  show StableHlo.after hostOps2_2 (StableHlo.after hostOps2_1 (StableHlo.after hostOps2 (W6 m ρ c))) (Proc.devRef .tc main_v94) = _
  rw [where2_eq]
  generalize W6 m ρ c = X
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 4000000 in
/-- The four middle stretches compute `hidden` of the first region's result, the edge list and the first bias. -/
theorem middle_stretch (c : Dev nD) :
    W5 m ρ c (Proc.devRef .tc main_v47)
      = Cert.Gcn.hidden (F := Ideal) (W1 m ρ c (Proc.devRef .tc main_v0)) (W1 m ρ c (Proc.devRef .tc main_arg1))
          (W1 m ρ c (Proc.devRef .tc main_arg3)) := by
  show StableHlo.after hostOps1_3 (StableHlo.after hostOps1_2 (StableHlo.after hostOps1_1 (StableHlo.after hostOps1 (W1 m ρ c)))) (Proc.devRef .tc main_v47) = _
  rw [where1_eq, clip1_eq]
  generalize W1 m ρ c = X
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 4000000 in
/-- The middle stretches write no argument array. -/
theorem middle_keeps (c : Dev nD) :
    W5 m ρ c (Proc.devRef .tc main_arg1) = W1 m ρ c (Proc.devRef .tc main_arg1)
    ∧ W5 m ρ c (Proc.devRef .tc main_arg4) = W1 m ρ c (Proc.devRef .tc main_arg4)
    ∧ W5 m ρ c (Proc.devRef .tc main_arg5) = W1 m ρ c (Proc.devRef .tc main_arg5) := by
  refine ⟨?_, ?_, ?_⟩
  · show StableHlo.after hostOps1_3 (StableHlo.after hostOps1_2 (StableHlo.after hostOps1_1 (StableHlo.after hostOps1 (W1 m ρ c)))) (Proc.devRef .tc main_arg1) = _
    generalize W1 m ρ c = X
    after_results_simp <;> rfl
  · show StableHlo.after hostOps1_3 (StableHlo.after hostOps1_2 (StableHlo.after hostOps1_1 (StableHlo.after hostOps1 (W1 m ρ c)))) (Proc.devRef .tc main_arg4) = _
    generalize W1 m ρ c = X
    after_results_simp <;> rfl
  · show StableHlo.after hostOps1_3 (StableHlo.after hostOps1_2 (StableHlo.after hostOps1_1 (StableHlo.after hostOps1 (W1 m ρ c)))) (Proc.devRef .tc main_arg5) = _
    generalize W1 m ρ c = X
    after_results_simp <;> rfl

/-! ## The argument arrays at the boundaries -/

/-- At the first region's exit the arguments it does not stage are as launched. -/
theorem W1_arg1 (c : Dev nD) : W1 m ρ c (Proc.devRef .tc main_arg1) = m ((c : Thread nD τ).loc main_arg1) :=
  W1_of_ne m ρ c main_arg1 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)

/-- At the second region's exit the edge list and the second bias are as launched. -/
theorem W6_arg1 (c : Dev nD) : W6 m ρ c (Proc.devRef .tc main_arg1) = m ((c : Thread nD τ).loc main_arg1) :=
  (W6_of_ne m ρ c main_arg1 (by decide)).trans (((middle_keeps m ρ c).1).trans (W1_arg1 m ρ c))
theorem W6_arg5 (c : Dev nD) : W6 m ρ c (Proc.devRef .tc main_arg5) = m ((c : Thread nD τ).loc main_arg5) :=
  (W6_of_ne m ρ c main_arg5 (by decide)).trans (((middle_keeps m ρ c).2.2).trans (W1_arg5 m ρ c))

/-! ## The two regions -/

/-- The first region leaves x · W1 in its result array. -/
theorem first_product (c : Dev nD) :
    W1 m ρ c (Proc.devRef .tc main_v0)
      = matProd (R := 100000) (K := 256) (C := 32) (φ₁ := .f32) (φ₂ := .f32)
          (m ((c : Thread nD τ).loc main_arg0)) (m ((c : Thread nD τ).loc main_arg2)) :=
  (W1_arr m ρ c 2).trans (Cert.Gcn.Mm0.final (V0 m ρ) c)

/-- The second region leaves (its left operand as it finds it) · W2 in its result array. -/
theorem second_product (c : Dev nD) :
    W6 m ρ c (Proc.devRef .tc main_v48)
      = matProd (R := 100000) (K := 32) (C := 1) (φ₁ := .f32) (φ₂ := .f32)
          (W5 m ρ c (Proc.devRef .tc main_v47)) (m ((c : Thread nD τ).loc main_arg4)) := by
  refine (W6_arr m ρ c 2).trans ((Cert.Gcn.Mm1.final (V5 m ρ) c).trans ?_)
  show matProd (W5 m ρ c (Proc.devRef .tc main_v47)) (W5 m ρ c (Proc.devRef .tc main_arg4)) = _
  rw [(middle_keeps m ρ c).2.1, W1_arg4]

/-! ## The result -/

/-- The result buffer after the last segment: `readout (hidden (x·W1) e b1 · W2) e b2`. -/
theorem result_eq (c : Dev nD) :
    W9 m ρ c (Proc.devRef .tc main_v94)
      = Cert.Gcn.readout (F := Ideal)
          (matProd (R := 100000) (K := 32) (C := 1) (φ₁ := .f32) (φ₂ := .f32)
            (Cert.Gcn.hidden (F := Ideal)
              (matProd (R := 100000) (K := 256) (C := 32) (φ₁ := .f32) (φ₂ := .f32)
                (m ((c : Thread nD τ).loc main_arg0)) (m ((c : Thread nD τ).loc main_arg2)))
              (m ((c : Thread nD τ).loc main_arg1)) (m ((c : Thread nD τ).loc main_arg3)))
            (m ((c : Thread nD τ).loc main_arg4)))
          (m ((c : Thread nD τ).loc main_arg1)) (m ((c : Thread nD τ).loc main_arg5)) := by
  rw [last_stretch, second_product, middle_stretch, first_product, W6_arg1, W6_arg5, W1_arg1, W1_arg3]

end Cert.Gcn.KernelValue

end
-- ==== Proof.lean ====
/-
  Two graph-convolution layers (a linear map, then a degree-normalised sum over incoming edges with self-loops),
  the first followed by a bias and a clip at zero, the second by a bias: the kernel program computes the two linear
  maps x·W1 and h·W2 in row blocks of 5000 on the matrix unit and everything else by host operations; the
  reference computes the two linear maps by the host's matrix product and everything else by the same host
  operations.

  At the ideal values a block product into a zero accumulator is, entry by entry, the sum Σ_k l(p, k)·r(k, q), the
  twenty row blocks cover the result, and the host's product is the same sum; so each region leaves the array the
  reference's product computes (Mm0, Mm1, RefSide).  The host operations around the products are the same two
  functions of whole arrays in both programs (`Cert.Gcn.hidden`, `Cert.Gcn.readout`), so the two results are one
  term of the arguments: `readout (hidden (x·W1) e b1 · W2) e b2`.  No law of the extended reals beyond the
  definition of the two products as sums is used, and the inputs' finiteness is not needed.

  The ideal pass rewrote nothing, so the kernel's idealization is its own text.
-/
import proofs.«117022_j25821343383879_1_alg».proof.Defs
import proofs.«117022_j25821343383879_1_alg».proof.Proof.Gen.Kernel
import proofs.«117022_j25821343383879_1_alg».proof.Proof.Gen.Kernel.Frame
import proofs.«117022_j25821343383879_1_alg».proof.Proof.Gen.KernelIdeal
import proofs.«117022_j25821343383879_1_alg».proof.Proof.Gen.KernelIdeal.Frame
import proofs.«117022_j25821343383879_1_alg».proof.Proof.Gen.ReferenceIdeal
import proofs.«117022_j25821343383879_1_alg».proof.Proof.Gen.Pre_finite_inputs
import proofs.«117022_j25821343383879_1_alg».proof.Proof.RefRun
import proofs.«117022_j25821343383879_1_alg».proof.Proof.RefSide
import proofs.«117022_j25821343383879_1_alg».proof.Proof.KernelRun
import proofs.«117022_j25821343383879_1_alg».proof.Proof.KernelValue
import Idealize.ShloMosaic.Adequacy
import Idealize.ShloMosaic.Init

noncomputable section

namespace Cert.Proof

open Idealize.ShloMosaic Idealize.ShloMosaic.TcCoe Idealize.SL.Sem
open Cert.LibMatProd

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Nothing was rewritten. -/
theorem preserves : Cert.preserves_Kernel_KernelIdeal := trivial

/-- Both programs end with the result `readout (hidden (x·W1) e b1 · W2) e b2` of arguments that agree. -/
theorem algebraic : Cert.algebraic_KernelIdeal_ReferenceIdeal := by
  intro m ρ m' ρ' _ hagree
  refine ⟨fun c => Cert.Gcn.readout (F := Ideal)
      (matProd (R := 100000) (K := 32) (C := 1) (φ₁ := .f32) (φ₂ := .f32)
        (Cert.Gcn.hidden (F := Ideal)
          (matProd (R := 100000) (K := 256) (C := 32) (φ₁ := .f32) (φ₂ := .f32)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg2)))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg3)))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg5)), ?_, ?_⟩
  · refine (θ_run Cert.KernelIdeal.defs _ _).mono (fun r h c => ?_) (Cert.Gcn.KernelRun.run_all (F := Ideal) m ρ)
    exact ⟨(h c _ (Cert.KernelIdeal.Gen.mem_uc Cert.KernelIdeal.main_v94 (by decide))).trans (Cert.Gcn.KernelValue.result_eq m ρ c),
      (h c _ (Cert.KernelIdeal.Gen.mem_uc Cert.KernelIdeal.main_arg0 (by decide))).trans (Cert.KernelIdeal.Gen.W9_main_arg0 m ρ c),
      (h c _ (Cert.KernelIdeal.Gen.mem_uc Cert.KernelIdeal.main_arg1 (by decide))).trans (Cert.KernelIdeal.Gen.W9_main_arg1 m ρ c),
      (h c _ (Cert.KernelIdeal.Gen.mem_uc Cert.KernelIdeal.main_arg2 (by decide))).trans (Cert.KernelIdeal.Gen.W9_main_arg2 m ρ c),
      (h c _ (Cert.KernelIdeal.Gen.mem_uc Cert.KernelIdeal.main_arg3 (by decide))).trans (Cert.KernelIdeal.Gen.W9_main_arg3 m ρ c),
      (h c _ (Cert.KernelIdeal.Gen.mem_uc Cert.KernelIdeal.main_arg4 (by decide))).trans (Cert.KernelIdeal.Gen.W9_main_arg4 m ρ c),
      (h c _ (Cert.KernelIdeal.Gen.mem_uc Cert.KernelIdeal.main_arg5 (by decide))).trans (Cert.KernelIdeal.Gen.W9_main_arg5 m ρ c)⟩
  · refine (θ_run Cert.ReferenceIdeal.defs _ _).mono (fun _ h c => ⟨(h c).1.trans ?_, (h c).2⟩)
      (Cert.ReferenceIdeal.ValueP.run (F := Ideal) m' ρ')
    rw [Cert.Gcn.Ref.res_eq, (hagree c).1, (hagree c).2.1, (hagree c).2.2.1, (hagree c).2.2.2.1, (hagree c).2.2.2.2.1,
      (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
